-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S65536x512 32) (main_arg1 : FVec F S512 .f32) (main_arg2 : FVec F S512 .f32) : IVec S_ 1 :=
  let main_v0 : FVec F S512 .f32 := Host.absf main_arg1
  let main_cst : FVec F S_ .f32 := constant S_ .f32 0x7F800000#32
  let main_v1 : FVec F S512 .f32 := broadcastInDim S512 ![] bcast_S_S512 main_cst
  let main_v2 : IVec S512 1 := cmpf .olt main_v0 main_v1
  let main_c : IVec S_ 1 := constantI S_ 1 1#1
  let main_v3 : IVec S_ 1 := (fun x v => Host.reduce IntOp.andi x v reducesTo_S512_S_d0 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S65536x512 : Shape := ⟨2, ![65536, 512]⟩
abbrev S512 : Shape := ⟨1, ![512]⟩
abbrev S_ : Shape := ⟨0, ![]⟩
abbrev S2x1x1 : Shape := ⟨3, ![2, 1, 1]⟩
abbrev S2048x512 : Shape := ⟨2, ![2048, 512]⟩
abbrev S1x1x1 : Shape := ⟨3, ![1, 1, 1]⟩
abbrev S1x1 : Shape := ⟨2, ![1, 1]⟩
abbrev S1x512 : Shape := ⟨2, ![1, 512]⟩
abbrev S2048 : Shape := ⟨1, ![2048]⟩
abbrev S2048x1 : Shape := ⟨2, ![2048, 1]⟩
abbrev S1 : Shape := ⟨1, ![1]⟩

abbrev nBuf : Space → Nat
  | .hbm => 24
  | .vmem => 7
  | .smem => 0
  | _ => 0

abbrev bufTy : (tb : Table) → Fin (tcTables nBuf tb) → BufTy
  | .hbm, ⟨0, _⟩ => ⟨S65536x512, .i32⟩
  | .hbm, ⟨1, _⟩ => ⟨S512, .f32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .i1⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S2x1x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S2048x512, .i32⟩
  | .local _ .vmem, ⟨1, _⟩ => ⟨S2048x512, .i32⟩
  | .local _ .vmem, ⟨2, _⟩ => ⟨S512, .f32⟩
  | .local _ .vmem, ⟨3, _⟩ => ⟨S512, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S65536x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v29 : BitVec 1 := Scalar.cmpi .eq arg1 c15_i32
  let v30 : BitVec 32 := Scalar.extui v29
  let c0_i32_10 : BitVec 32 := 0#32
  let v31 : BitVec 1 := Scalar.cmpi .ne v30 c0_i32_10
  v31

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S512 : S_.BroadcastsInDim S512 (![] : Fin 0 → Fin S512.rank)
  inb_S2048x512_S2048x512_0_0 : ∀ a, (![0, 0] : Fin 2 → Nat) a + S2048x512.size a ≤ S2048x512.size a
  h_S2048x512 : 0 < S2048x512.numel
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S2048x512 : S1x512.Broadcasts S2048x512
  shapeCasts_S1x512_S1x512 : S1x512.ShapeCasts S1x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .i32 = 32 ∨ (Rect.block (s := S65536x512) S2048x512.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x512 : Shape := ⟨2, ![65536, 512]⟩
abbrev S512 : Shape := ⟨1, ![512]⟩
abbrev S_ : Shape := ⟨0, ![]⟩
abbrev S1x512 : Shape := ⟨2, ![1, 512]⟩
abbrev S65536 : Shape := ⟨1, ![65536]⟩

abbrev nBuf : Space → Nat
  | .hbm => 39
  | .vmem => 0
  | .smem => 0
  | _ => 0

abbrev bufTy : (tb : Table) → Fin (tcTables nBuf tb) → BufTy
  | .hbm, ⟨0, _⟩ => ⟨S65536x512, .i32⟩
  | .hbm, ⟨1, _⟩ => ⟨S512, .f32⟩
  | .hbm, ⟨2, _⟩ => ⟨S512, .f32⟩
  | .hbm, ⟨3, _⟩ => ⟨S_, .i32⟩
  | .hbm, ⟨4, _⟩ => ⟨S65536x512, .i32⟩
  | .hbm, ⟨5, _⟩ => ⟨S65536x512, .i1⟩
  | .hbm, ⟨6, _⟩ => ⟨S_, .i32⟩
  | .hbm, ⟨7, _⟩ => ⟨S_, .i32⟩
  | .hbm, ⟨8, _⟩ => ⟨S65536x512, .i32⟩
  | .hbm, ⟨9, _⟩ => ⟨S65536x512, .i32⟩
  | .hbm, ⟨10, _⟩ => ⟨S65536x512, .f32⟩
  | .hbm, ⟨11, _⟩ => ⟨S512, .f32⟩
  | .hbm, ⟨12, _⟩ => ⟨S1x512, .f32⟩
  | .hbm, ⟨13, _⟩ => ⟨S65536x512, .f32⟩
  | .hbm, ⟨14, _⟩ => ⟨S65536x512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .i1⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S1x512, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S65536x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_cst : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_v8 : Ref sig .tc := ⟨.hbm, 28, rfl⟩
abbrev main_v9 : Ref sig .tc := ⟨.hbm, 29, rfl⟩
abbrev main_call2_v0 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_cst_2 : Ref sig .tc := ⟨.hbm, 36, rfl⟩
abbrev main_v13 : Ref sig .tc := ⟨.hbm, 37, rfl⟩
abbrev main_v14 : Ref sig .tc := ⟨.hbm, 38, rfl⟩

abbrev nD : Nat := 1
abbrev τ : Topo := Topo.v7x

variable {F : FTy → Type} [FloatOps F]

class Facts₀ : Prop where
  bcast_S_S65536x512 : S_.BroadcastsInDim S65536x512 (![] : Fin 0 → Fin S65536x512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S512 : S_.BroadcastsInDim S512 (![] : Fin 0 → Fin S512.rank)
  reducesTo_S65536x512_S65536_d1 : S65536x512.ReducesTo [1] S65536
  h_S_ : 0 < S_.numel
  reducesTo_S65536_S_d0 : S65536.ReducesTo [0] S_

variable [Facts₀]

class Facts : Prop extends Facts₀ where

variable [Facts]
-- ==== Proof.LibResetSum.lean ====
/-
  Two laws about sums taken in pieces, in any commutative additive monoid (so they hold on the extended reals, with
  their infinities, exactly as on the reals: only associativity and commutativity of addition are used).

  1. Tiling. The sum of the first A * B terms of a sequence is the sum, over A consecutive tiles, of each tile's B terms.

  2. A running total with periodic reset. Walk the steps 0, 1, 2, … keeping a running total that is RESET at every
     step divisible by P (there it becomes that step's term alone) and otherwise grows by the step's term. Then at the
     j-th step of the q-th period the total is the sum of that period's first j + 1 terms; in particular, at a period's
     last step it is the sum of the period's P terms. This is what an accumulator carried along the inner axis of a
     two-axis grid holds when it is cleared at the start of every row of the grid.
-/
import Mathlib.Algebra.BigOperators.Fin

open Finset

namespace Cert.ResetSum

variable {M : Type*} [AddCommMonoid M]

/-- Tiling: the first `A * B` terms, summed tile by tile. -/
theorem sum_range_mul (A B : ℕ) (g : ℕ → M) :
    ∑ n ∈ range (A * B), g n = ∑ a ∈ range A, ∑ b ∈ range B, g (a * B + b) := by
  induction A with
  | zero => rw [Nat.zero_mul, range_zero, sum_empty, sum_empty]
  | succ A ih => rw [Nat.succ_mul, sum_range_add, ih, sum_range_succ]

/-- The running total that is reset at every step divisible by `P`. -/
def resetAcc (P : ℕ) (f : ℕ → M) : ℕ → M
  | 0 => f 0
  | n + 1 => if (n + 1) % P = 0 then f (n + 1) else resetAcc P f n + f (n + 1)

/-- At a step divisible by the period the total is that step's term. -/
theorem resetAcc_of_dvd (P : ℕ) (f : ℕ → M) (n : ℕ) (h : n % P = 0) : resetAcc P f n = f n := by
  cases n with
  | zero => rfl
  | succ n => exact if_pos h

/-- At any other step it grows by that step's term. -/
theorem resetAcc_succ (P : ℕ) (f : ℕ → M) (n : ℕ) (h : ¬(n + 1) % P = 0) :
    resetAcc P f (n + 1) = resetAcc P f n + f (n + 1) := if_neg h

/-- Within a period: at its `j`-th step the total is the sum of the period's first `j + 1` terms. -/
theorem resetAcc_period (P : ℕ) (f : ℕ → M) (q : ℕ) :
    ∀ j, j < P → resetAcc P f (q * P + j) = ∑ k ∈ range (j + 1), f (q * P + k)
  | 0, _ => by
    rw [resetAcc_of_dvd P f _ (by rw [Nat.add_zero, Nat.mul_mod_left]), sum_range_one]
  | j + 1, hj => by
    have hne : ¬(q * P + j + 1) % P = 0 := by
      rw [Nat.add_assoc, Nat.mul_add_mod', Nat.mod_eq_of_lt hj]; exact Nat.succ_ne_zero j
    rw [← Nat.add_assoc, resetAcc_succ P f _ hne, resetAcc_period P f q j (Nat.lt_of_succ_lt hj),
      sum_range_succ _ (j + 1), Nat.add_assoc]

/-- At a period's last step: the sum of the period's `P` terms. -/
theorem resetAcc_last (P : ℕ) (hP : 0 < P) (f : ℕ → M) (q : ℕ) :
    resetAcc P f (q * P + (P - 1)) = ∑ k ∈ range P, f (q * P + k) := by
  rw [resetAcc_period P f q (P - 1) (Nat.sub_lt hP Nat.one_pos), Nat.sub_add_cancel hP]

end Cert.ResetSum
-- ==== Proof.Spec.lean ====
/-
  The quantity both programs compute, and why their two ways of computing it agree on the extended reals.

  For an integer array Y (65536 rows, 512 columns) and two real vectors a, b of length 512, the ENTRY at (n, f) is
      a f * (Y n f as a real)   where Y n f is not the missing-value marker -1,
      b f                       where it is
  (the product is written with the marker replaced by 0 before conversion, as both programs write it). The ROW SUM of
  row n is the sum of its 512 entries, and the result is  -(S / D)  where S is the sum of all 65536 row sums and D is a
  nonzero real constant.

  One program adds the rows up in order and divides, then negates. The other cuts the rows into 32 tiles of 2048
  consecutive rows, forms each tile's total, adds the tiles up in two groups of 16 (a running total that is reset at
  the start of each group), adds the two group totals, negates, and then divides. The two agree because
    * addition on the extended reals is associative and commutative, so regrouping a finite sum changes nothing
      (no finiteness of the entries is needed), and
    * dividing by a nonzero REAL is multiplying by its reciprocal, and a sign moves across a product:
      (-S) / D = -(S / D), also when S is infinite.
-/
import proofs.«107962_j25941602467911_2_alg».proof.Proof.LibResetSum
import Idealize.ShloMosaic.Lib.ValueIdx
import Idealize.ShloMosaic.PureOps.Ideal.Laws

noncomputable section

open Idealize.ShloMosaic Idealize.ShloMosaic.ValueIdx Finset

namespace Cert.Spec

/-- One entry: `a * y` where `y` is not the marker `-1` (as a 32-bit word, all ones), else `b`. -/
def entry (y : BitVec 32) (a b : Ideal .f32) : Ideal .f32 :=
  Scalar.select (IntOp.cmpi .ne y 4294967295#32)
    (a * FloatOps.sitofp (F := Ideal) .f32 (Scalar.select (IntOp.cmpi .ne y 4294967295#32) y 0#32)) b

/-- The sum of row `n`'s 512 entries (zero for a row number past the array, which no sum below reaches). -/
def rowSum (Y : (⟨2, ![65536, 512]⟩ : Shape).Idx → BitVec 32) (a b : (⟨1, ![512]⟩ : Shape).Idx → Ideal .f32) (n : ℕ) :
    Ideal .f32 :=
  if h : n < 65536 then ∑ f : Fin 512, entry (Y (ix2 ⟨n, h⟩ f)) (a (ix1 f)) (b (ix1 f)) else 0

/-- The total of tile `t`: rows `2048 t` to `2048 t + 2047`. -/
def tileSum (Y : (⟨2, ![65536, 512]⟩ : Shape).Idx → BitVec 32) (a b : (⟨1, ![512]⟩ : Shape).Idx → Ideal .f32) (t : ℕ) :
    Ideal .f32 :=
  ∑ r ∈ range 2048, rowSum Y a b (t * 2048 + r)

/-- The sum of all row sums. -/
def total (Y : (⟨2, ![65536, 512]⟩ : Shape).Idx → BitVec 32) (a b : (⟨1, ![512]⟩ : Shape).Idx → Ideal .f32) : Ideal .f32 :=
  ∑ n ∈ range 65536, rowSum Y a b n

/-- The running total over the tiles, reset at the start of each group of sixteen, after tile `t`. -/
def groupAcc (Y : (⟨2, ![65536, 512]⟩ : Shape).Idx → BitVec 32) (a b : (⟨1, ![512]⟩ : Shape).Idx → Ideal .f32) (t : ℕ) :
    Ideal .f32 :=
  ResetSum.resetAcc 16 (tileSum Y a b) t

/-- The two group totals, added up, are the sum of all rows: 2 groups of 16 tiles of 2048 rows are the 65536 rows in
    order. -/
theorem groups_eq_total (Y : (⟨2, ![65536, 512]⟩ : Shape).Idx → BitVec 32) (a b : (⟨1, ![512]⟩ : Shape).Idx → Ideal .f32) :
    ∑ g ∈ range 2, groupAcc Y a b (g * 16 + 15) = total Y a b := by
  unfold groupAcc total
  rw [show (65536 : ℕ) = 32 * 2048 from rfl, ResetSum.sum_range_mul 32 2048,
    show (32 : ℕ) = 2 * 16 from rfl, ResetSum.sum_range_mul 2 16]
  refine sum_congr rfl fun g _ => ?_
  exact ResetSum.resetAcc_last 16 (by decide) (tileSum Y a b) g

/-- The divisor both programs use, `65536.0` as a single-precision pattern, denotes the real 65536. -/
theorem divisor_eq : Ideal.ofBits .f32 0x47800000#32 = ((65536 : ℝ) : EReal) := by
  simp [Ideal.ofBits, Ideal.ieee, -EReal.coe_mul]; norm_num

/-- A sign moves across a division by a nonzero real: `(-S) / D = -(S / D)` on every extended real `S`. -/
theorem div_neg_real {D : ℝ} (hD : D ≠ 0) (S : EReal) : Ideal.div (-S) (D : EReal) = -Ideal.div S (D : EReal) := by
  rw [Ideal.div_coe hD, Ideal.div_coe hD, EReal.neg_mul]

/-- So negating the sum before dividing by the programs' divisor is negating the quotient. -/
theorem neg_div_divisor (S : EReal) :
    Ideal.div (-S) (Ideal.ofBits .f32 0x47800000#32) = -Ideal.div S (Ideal.ofBits .f32 0x47800000#32) := by
  rw [divisor_eq]; exact div_neg_real (by norm_num) S

end Cert.Spec

end
-- ==== Proof.LibIdxSum.lean ====
/-
  Sums over the index sets of small-rank arrays, as sums over their one free coordinate.

  The index set of a rank-1 array of extent n is in bijection with the numbers below n, and so is the index set of a
  rank-3 array whose extents are n, 1, 1 (the two unit axes carry no information). A sum over either index set, in any
  commutative additive monoid, is therefore the sum over the coordinate.
-/
import Idealize.ShloMosaic.Lib.ValueIdx

open Idealize.ShloMosaic Idealize.ShloMosaic.ValueIdx

namespace Cert.IdxSum

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An index of an `n x 1 x 1` array is its first coordinate. -/
def idxEquiv311 {n : Nat} : (⟨3, ![n, 1, 1]⟩ : Shape).Idx ≃ Fin n where
  toFun i := i 0
  invFun a := ix3 a (0 : Fin 1) (0 : Fin 1)
  left_inv i := funext fun d => by
    have h1 : (i 1).val < 1 := (i 1).isLt
    have h2 : (i 2).val < 1 := (i 2).isLt
    match d with
    | ⟨0, _⟩ => rfl
    | ⟨1, _⟩ => exact Fin.ext (by show 0 = (i 1).val; omega)
    | ⟨2, _⟩ => exact Fin.ext (by show 0 = (i 2).val; omega)
  right_inv _ := rfl

/-- A sum over the index set of an `n x 1 x 1` array is the sum over the first coordinate. -/
theorem sum_idx311 {M : Type*} [AddCommMonoid M] {n : Nat} (f : (⟨3, ![n, 1, 1]⟩ : Shape).Idx → M) :
    ∑ i, f i = ∑ a : Fin n, f (ix3 a (0 : Fin 1) (0 : Fin 1)) := by
  rw [← Equiv.sum_comp (idxEquiv311 (n := n)).symm f]
  rfl

end Cert.IdxSum
-- ==== Proof.RefValue.lean ====
/-
  The reference, read on the extended reals.

  The reference forms the 65536 x 512 array of entries (a f * Y n f where Y n f is not the marker -1, b f where it
  is) with a = theta + psi and b = the missing-value term of theta (a fixed chain of elementwise operations on theta:
  both programs apply the same chain, so it is carried as one function and never opened). It sums each row, sums the
  65536 row sums in order, divides by 65536 and negates. Each of the two sums starts from an initial value of zero.
  So its result is  -(S / 65536)  with S the sum of all row sums.
-/
import proofs.«107962_j25941602467911_2_alg».proof.Proof.Gen.ReferenceIdeal.Read
import proofs.«107962_j25941602467911_2_alg».proof.Proof.Spec
import proofs.«107962_j25941602467911_2_alg».proof.Proof.LibIdxSum
import Idealize.ShloMosaic.Lib.ValueIdx
import Idealize.ShloMosaic.PureOps.Ideal.Laws

noncomputable section

open Idealize.ShloMosaic Idealize.ShloMosaic.ValueIdx Finset

namespace Cert.ReferenceIdeal.RefValue

open Cert.ReferenceIdeal Cert.ReferenceIdeal.Read

/-- The value an entry takes where the integer is the missing-value marker, as a function of theta: the chain of
    elementwise operations both programs apply to theta. -/
abbrev missing (θ : FVec Ideal S512 .f32) : FVec Ideal S512 .f32 := val_main_v8 (F := Ideal) θ

/-- The common result: the negated quotient of the sum of all row sums by the divisor. -/
def result (Y : S65536x512.Idx → BitVec 32) (θ ψ : FVec Ideal S512 .f32) : Ideal .f32 :=
  -Ideal.div (Cert.Spec.total Y (addf θ ψ) (missing θ)) (Ideal.ofBits .f32 0x47800000#32)

/-- The reference's array of entries, read at row `n` and column `k`. -/
theorem entry_eq (Y : S65536x512.Idx → BitVec 32) (θ ψ : FVec Ideal S512 .f32) (n : Fin 65536) (k : Fin 512) :
    val_main_v10 (F := Ideal) Y θ ψ (ix2 n k)
      = Cert.Spec.entry (Y (ix2 n k)) (addf θ ψ (ix1 k)) (missing θ (ix1 k)) := by
  have h5 : idx_main_v5 (idx_main_v6 (ix2 n k)) = ix1 k := funext fun a => by match a with | ⟨0, _⟩ => rfl
  have h9 : idx_main_v9 (idx_main_call2_v0 (ix2 n k)) = ix1 k := funext fun a => by match a with | ⟨0, _⟩ => rfl
  unfold Cert.Spec.entry
  rw [val_main_v10_apply, val_main_v7_apply, val_main_v6_apply, val_main_v5_apply, val_main_call2_v0_apply,
    val_main_v9_apply, val_main_v3_apply, val_main_v2_apply, val_main_call0_v1_apply, val_main_v1_apply,
    val_main_v0_apply, h5, h9]
  rfl

/-- The reference's row sums, read at row `n`: the initial zero plus the sum of the row's entries. -/
theorem row_eq (Y : S65536x512.Idx → BitVec 32) (θ ψ : FVec Ideal S512 .f32) (n : Fin 65536) :
    val_main_v11 (F := Ideal) Y θ ψ (ix1 n) = Cert.Spec.rowSum Y (addf θ ψ) (missing θ) n.val := by
  rw [val_main_v11_apply]
  unfold Cert.Spec.rowSum
  rw [dif_pos n.isLt]
  show Ideal.ofBits .f32 0x00000000#32 + _ = _
  rw [Ideal.ofBits_zero_f32, zero_add]
  refine sum_congr rfl fun (k : Fin 512) _ => ?_
  have e : idx_main_v11 (ix1 n) k = ix2 n k := funext fun a => by match a with | ⟨0, _⟩ => rfl | ⟨1, _⟩ => rfl
  rw [e, entry_eq]

/-- The reference's last stage is the common result. -/
theorem value_eq (Y : S65536x512.Idx → BitVec 32) (θ ψ : FVec Ideal S512 .f32) :
    val_main_v14 (F := Ideal) Y θ ψ = fun _ => result Y θ ψ := by
  funext i
  rw [val_main_v14_apply, val_main_v13_apply, val_main_v12_apply]
  unfold result Cert.Spec.total
  show -Ideal.div (Ideal.ofBits .f32 0x00000000#32 + _) (Ideal.ofBits .f32 0x47800000#32) = _
  rw [Ideal.ofBits_zero_f32, zero_add, Cert.IdxSum.sum_idx1, Finset.sum_range]
  refine congrArg (fun S => -Ideal.div S (Ideal.ofBits .f32 0x47800000#32)) ?_
  exact sum_congr rfl fun (n : Fin 65536) _ => row_eq Y θ ψ n

end Cert.ReferenceIdeal.RefValue

end
-- ==== Proof.Pieces.lean ====
/-
  What one grid point's body leaves behind, as pure terms of what it loads.

  The body of the kernel keeps a one-entry running total in a scratch cell. At every grid point it adds to that cell
  the total of its 2048 x 512 tile of per-entry terms; at the first point of each group of sixteen it first resets the
  cell to zero; at the last point of each group it also copies the cell into the one-entry output block.

  So, whatever the float instance:
    * at a first point the cell ends holding  step x0 x1 x2 zero,
    * at a middle point                       step x0 x1 x2 (what the cell held),
    * at a last point                         the same, and the output block holds that value recast to three axes,
  where  step  is the body's one arithmetic term (the tile total added to the previous cell contents) and  zero  is
  the reset value. Each statement is read off the stores that point performs: one store covers the whole cell (or the
  whole block), so what is read back afterwards is that store's value.
-/
import proofs.«107962_j25941602467911_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The origin of a one-, two- or three-axis rectangle is the all-zero offset. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A first point of a group: the cell is reset, read back, and ends at the tile total added to the reset value. -/
theorem cell_first (c : Dev nD) (i : grid0.Coords) (arg2 : Memref sig .tc .vmem S2048x512 .i32) (harg2 : arg2.IsWhole) (arg3 : Memref sig .tc .vmem S512 .f32) (harg3 : arg3.IsWhole) (arg4 : Memref sig .tc .vmem S512 .f32) (harg4 : arg4.IsWhole) (arg5 : Memref sig .tc .vmem S1x1x1 .f32) (harg5 : arg5.IsWhole) (arg6 : Memref sig .tc .vmem S1x1 .f32) (harg6 : arg6.IsWhole) (hc0 : cond0_0 i) (hc1 : ¬cond0_1 i)
    (x0 : Vec F S2048x512 .i32) (x1 : Vec F S512 .f32) (x2 : Vec F S512 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread,
    View.ld_unit_zero (S := S2048x512) hz2, View.ld_unit_zero (S := S512) hz1]

/-- A middle point: the cell ends at the tile total added to what it held. -/
theorem cell_middle (c : Dev nD) (i : grid0.Coords) (arg2 : Memref sig .tc .vmem S2048x512 .i32) (harg2 : arg2.IsWhole) (arg3 : Memref sig .tc .vmem S512 .f32) (harg3 : arg3.IsWhole) (arg4 : Memref sig .tc .vmem S512 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : ¬cond0_1 i)
    (x0 : Vec F S2048x512 .i32) (x1 : Vec F S512 .f32) (x2 : Vec F S512 .f32) (xs0 : Vec F S1x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg4.read_unread, harg6.read_unread,
    View.ld_unit_zero (S := S2048x512) hz2, View.ld_unit_zero (S := S512) hz1, View.ld_unit_zero (S := S1x1) hz2]

/-- A last point of a group: the cell ends as at a middle point … -/
theorem cell_last (c : Dev nD) (i : grid0.Coords) (arg2 : Memref sig .tc .vmem S2048x512 .i32) (harg2 : arg2.IsWhole) (arg3 : Memref sig .tc .vmem S512 .f32) (harg3 : arg3.IsWhole) (arg4 : Memref sig .tc .vmem S512 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i)
    (x0 : Vec F S2048x512 .i32) (x1 : Vec F S512 .f32) (x2 : Vec F S512 .f32) (xs0 : Vec F S1x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread,
    View.ld_unit_zero (S := S2048x512) hz2, View.ld_unit_zero (S := S512) hz1, View.ld_unit_zero (S := S1x1) hz2]

/-- … and the output block holds the cell's new contents, recast from two axes to three. -/
theorem block_last (c : Dev nD) (i : grid0.Coords) (arg2 : Memref sig .tc .vmem S2048x512 .i32) (harg2 : arg2.IsWhole) (arg3 : Memref sig .tc .vmem S512 .f32) (harg3 : arg3.IsWhole) (arg4 : Memref sig .tc .vmem S512 .f32) (harg4 : arg4.IsWhole) (arg5 : Memref sig .tc .vmem S1x1x1 .f32) (harg5 : arg5.IsWhole) (arg6 : Memref sig .tc .vmem S1x1 .f32) (harg6 : arg6.IsWhole) (hc0 : ¬cond0_0 i) (hc1 : cond0_1 i)
    (x0 : Vec F S2048x512 .i32) (x1 : Vec F S512 .f32) (x2 : Vec F S512 .f32) (xs0 : Vec F S1x1 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz3, View.readCov_unit_zero (S := S1x1) _ hz2]
  simp only [View.readAt_eq_ld, harg2.read_unread, harg3.read_unread, harg4.read_unread, harg6.read_unread,
    View.ld_unit_zero (S := S2048x512) hz2, View.ld_unit_zero (S := S512) hz1, View.ld_unit_zero (S := S1x1) hz2]

end Cert.KernelIdeal.Pieces

end
-- ==== Proof.Step.lean ====
/-
  The body's arithmetic, read on the extended reals.

  At one grid point the body sees a 2048 x 512 tile y of the integer array and the two length-512 vectors a and b, and
  a one-entry cell holding the running total. It forms the 2048 x 512 array of entries (a f * y r f where y r f is not
  the marker, b f where it is), sums it along each row, sums the resulting column, and adds that one number to the
  cell. Read at the cell's one index this is
      cell + sum over r < 2048 of sum over f < 512 of  entry (y r f) (a f) (b f).
  The recasts between shapes of one, two and three unit axes move no entry; the reset value is the real zero.
-/
import proofs.«107962_j25941602467911_2_alg».proof.Proof.Spec
import proofs.«107962_j25941602467911_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Step

open Cert.KernelIdeal Cert.KernelIdeal.Gen

/-- A column of 2048 entries recast as a 2048 x 1 array reads, at (r, u), the column at r. -/
theorem col_apply {α : Type} (x : S2048.Idx → α) (h : S2048.ShapeCasts S2048x1) (r : Fin 2048) (u : Fin 1) :
    shapeCast S2048x1 x h (ix2 r u) = x (ix1 r) :=
  shapeCast_apply x h _ _ (by
    have hu : u.val = 0 := by omega
    rw [Shape.rowMajor_val_two, Shape.rowMajor_val_one]
    show r.val = r.val * 1 + u.val
    rw [hu]; omega)

/-- Summing a 2048 x 512 array along its rows, then summing the resulting column, reads at the one index of the
    result as the double sum over rows and columns. -/
theorem total_apply (L : FVec Ideal S2048x512 .f32) (h1 : S2048x512.Reduces [1] S2048) (hc1 : S2048.ShapeCasts S2048x1)
    (h0 : S2048x1.Reduces [0] S1) (hc0 : S1.ShapeCasts S1x1) (hφ : FKind.Formats .f32)
    (hacc : (0x00000000#32 : BitVec 32) = FKind.add.neutral .f32 hφ) (u v : Fin 1) :
    shapeCast S1x1 (multiReduction .add [0] S1 (shapeCast S2048x1 (multiReduction .add [1] S2048 L 0x00000000#32 h1 hφ hacc) hc1)
        0x00000000#32 h0 hφ hacc) hc0 (ix2 u v)
      = ∑ r : Fin 2048, ∑ f : Fin 512, L (ix2 r f) := by
  rw [shapeCast_a_1a_apply, Ideal.multiReduction_add_single]
  refine Finset.sum_congr rfl fun (r : Fin 2048) _ => ?_
  have e : h0.lift (ix1 v) r = ix2 r v := funext fun a => Fin.ext (by match a with | ⟨0, _⟩ => rfl | ⟨1, _⟩ => rfl)
  rw [e, col_apply, Ideal.multiReduction_add_single]
  refine Finset.sum_congr rfl fun (f : Fin 512) _ => ?_
  exact congrArg L (funext fun a => Fin.ext (by match a with | ⟨0, _⟩ => rfl | ⟨1, _⟩ => rfl))

/-- A length-512 vector viewed as one row and repeated down 2048 rows reads, at (r, f), the vector at f. -/
theorem rows_apply {α : Type} (x : S512.Idx → α) (h1 : S512.ShapeCasts S512) (h2 : S512.ShapeCasts S1x512)
    (h3 : S1x512.Broadcasts S2048x512) (r : Fin 2048) (f : Fin 512) :
    broadcastTo S2048x512 (shapeCast S1x512 (shapeCast S512 x h1) h2) h3 (ix2 r f) = x (ix1 f) := by
  rw [broadcastTo_1b_ab_apply, shapeCast_a_1a_apply, shapeCast_self]

/-- The same through one more recast of the row to its own shape. -/
theorem rows_apply' {α : Type} (x : S512.Idx → α) (h1 : S512.ShapeCasts S512) (h2 : S512.ShapeCasts S1x512)
    (h4 : S1x512.ShapeCasts S1x512) (h3 : S1x512.Broadcasts S2048x512) (r : Fin 2048) (f : Fin 512) :
    broadcastTo S2048x512 (shapeCast S1x512 (shapeCast S1x512 (shapeCast S512 x h1) h2) h4) h3 (ix2 r f) = x (ix1 f) := by
  rw [broadcastTo_1b_ab_apply, shapeCast_self, shapeCast_a_1a_apply, shapeCast_self]

/-- The body's term at the cell's index: the previous contents plus the tile's double sum of entries. -/
theorem step_apply (x0 : Vec Ideal S2048x512 .i32) (x1 x2 : Vec Ideal S512 .f32) (acc : Vec Ideal S1x1 .f32) (u v : Fin 1) :
    k0_pay2 (F := Ideal) x0 x1 x2 acc (ix2 u v)
      = acc (ix2 u v) + ∑ r : Fin 2048, ∑ f : Fin 512, Cert.Spec.entry (x0 (ix2 r f)) (x1 (ix1 f)) (x2 (ix1 f)) := by
  unfold k0_pay2
  refine (congrFun (shapeCast_self _ _) _).trans ?_
  show acc (ix2 u v) + _ = acc (ix2 u v) + _
  refine congrArg (acc (ix2 u v) + ·) ?_
  refine (total_apply _ _ _ _ _ _ _ u v).trans ?_
  refine Finset.sum_congr rfl fun (r : Fin 2048) _ => Finset.sum_congr rfl fun (f : Fin 512) _ => ?_
  unfold Cert.Spec.entry
  rw [select_apply, mulf_apply, sitofp_apply, select_apply, rows_apply, rows_apply']
  rfl

/-- The tile's double sum of entries, as a function of the three blocks the body loads. -/
def tileOf (x0 : Vec Ideal S2048x512 .i32) (x1 x2 : Vec Ideal S512 .f32) : Ideal .f32 :=
  ∑ r : Fin 2048, ∑ f : Fin 512, Cert.Spec.entry (x0 (ix2 r f)) (x1 (ix1 f)) (x2 (ix1 f))

/-- A cell holding the number `s` holds, after the body's step, `s` plus the tile's total. -/
theorem step_eq (x0 : Vec Ideal S2048x512 .i32) (x1 x2 : Vec Ideal S512 .f32) (acc : Vec Ideal S1x1 .f32) (s : Ideal .f32)
    (hacc : acc = fun _ => s) : k0_pay2 (F := Ideal) x0 x1 x2 acc = fun _ => s + tileOf x0 x1 x2 := by
  funext k
  obtain ⟨u, v, rfl⟩ : ∃ (u v : Fin 1), k = ix2 u v := ⟨k 0, k 1, eq_ix2 k⟩
  rw [step_apply, hacc]
  rfl

/-- The reset value is zero. -/
theorem zero_eq : k0_pay1 (F := Ideal) = fun _ => (0 : Ideal .f32) := by
  unfold k0_pay1
  refine (shapeCast_self _ _).trans ?_
  funext k
  exact Ideal.ofBits_zero_f32

/-- Recasting the cell from two unit axes to three keeps its one number. -/
theorem recast_eq (v : Vec Ideal S1x1 .f32) (s : Ideal .f32) (hv : v = fun _ => s) :
    k0_pay3 (F := Ideal) v = fun _ => s := by
  subst hv
  rfl

end Cert.KernelIdeal.Step

end
-- ==== Proof.Blocks.lean ====
/-
  What the body loads at grid point t, in terms of the program's arguments.

  The grid has 32 points. At point t the first window's block is rows 2048 t to 2048 t + 2047 of the integer array Y
  (all 512 columns): its entry (r, f) is Y (2048 t + r, f). The other two windows always show the whole of their
  length-512 vectors, which the host computed before the launch: theta + psi, and the missing-value term of theta.
  So the tile total the body adds at point t is the sum of the row sums of rows 2048 t … 2048 t + 2047.
-/
import proofs.«107962_j25941602467911_2_alg».proof.Proof.Gen.KernelIdeal.Frame
import proofs.«107962_j25941602467911_2_alg».proof.Proof.Step
import proofs.«107962_j25941602467911_2_alg».proof.Proof.RefValue
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx Finset
open Idealize.ShloMosaic.Pipeline (Dat)

namespace Cert.KernelIdeal.Blocks

open Cert.KernelIdeal Cert.KernelIdeal.Gen

variable (m : (ℓ : Loc nD τ sig) → Buf (Elt Ideal) ℓ)

/-- The three arguments as the launch finds them. -/
abbrev argY (c : Dev nD) : S65536x512.Idx → BitVec 32 := m ((c.tc : Thread nD τ).loc main_arg0)
abbrev argθ (c : Dev nD) : FVec Ideal S512 .f32 := m ((c.tc : Thread nD τ).loc main_arg1)
abbrev argψ (c : Dev nD) : FVec Ideal S512 .f32 := m ((c.tc : Thread nD τ).loc main_arg2)

/-- Point `t`'s block of the first window starts at row block `t`, column block 0; the other two never move. -/
theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 1) = 0 :=
  (by decide +kernel : ∀ t : Fin grid0.N, win0_1.index t (0 : Fin 1) = 0)
theorem index2 : ∀ t : Fin cfg0.N, win0_2.index t (0 : Fin 1) = 0 :=
  (by decide +kernel : ∀ t : Fin grid0.N, win0_2.index t (0 : Fin 1) = 0)

/-- Every row of every tile is a row of the array. -/
theorem row_lt (t : Fin cfg0.N) (r : Fin 2048) : t.val * 2048 + r.val < 65536 := by
  have hN : t.val < 32 := lt_of_lt_of_eq t.isLt (show cfg0.N = 32 from N_0)
  have := r.isLt
  omega

/-- The integer block at point `t`: entry (r, f) is `Y (2048 t + r, f)`. -/
theorem blk0_apply (c : Dev nD) (t : Fin cfg0.N) (r : Fin 2048) (f : Fin 512) :
    (iblk m c 0 t : Vec Ideal S2048x512 .i32) (ix2 r f) = argY m c (ix2 ⟨t.val * 2048 + r.val, row_lt t r⟩ f) := by
  unfold iblk
  rw [View.read_apply]
  show V m c main_arg0 (((cfg0.win 0).blk t).view.emb (ix2 r f)) = _
  rw [V_main_arg0]
  refine congrArg (m ((c : Thread nD τ).loc main_arg0)) (funext fun a => Fin.ext ?_)
  match a with
  | ⟨0, _⟩ => show win0_0.index t 0 * 2048 + 1 * r.val = t.val * 2048 + r.val; rw [(index0 t).1]; omega
  | ⟨1, _⟩ => show win0_0.index t 1 * 512 + 1 * f.val = f.val; rw [(index0 t).2]; omega

/-- The second window's block at any point is the whole first host-computed vector. -/
theorem blk1_apply (c : Dev nD) (t : Fin cfg0.N) (f : Fin 512) :
    (iblk m c 1 t : Vec Ideal S512 .f32) (ix1 f) = (V m c main_v0 : FVec Ideal S512 .f32) (ix1 f) := by
  unfold iblk
  rw [View.read_apply]
  show V m c main_v0 (((cfg0.win 1).blk t).view.emb (ix1 f)) = _
  refine congrArg (V m c main_v0) (funext fun a => Fin.ext ?_)
  match a with
  | ⟨0, _⟩ => show win0_1.index t 0 * 512 + 1 * f.val = f.val; rw [index1 t]; omega

/-- The third window's block at any point is the whole second host-computed vector. -/
theorem blk2_apply (c : Dev nD) (t : Fin cfg0.N) (f : Fin 512) :
    (iblk m c 2 t : Vec Ideal S512 .f32) (ix1 f) = (V m c main_v1 : FVec Ideal S512 .f32) (ix1 f) := by
  unfold iblk
  rw [View.read_apply]
  show V m c main_v1 (((cfg0.win 2).blk t).view.emb (ix1 f)) = _
  refine congrArg (V m c main_v1) (funext fun a => Fin.ext ?_)
  match a with
  | ⟨0, _⟩ => show win0_2.index t 0 * 512 + 1 * f.val = f.val; rw [index2 t]; omega

/-- The first host-computed vector is theta + psi. -/
theorem sumvec_eq (c : Dev nD) : (V m c main_v0 : FVec Ideal S512 .f32) = addf (argθ m c) (argψ m c) := by
  dsimp only [V, V0]
  simp only [hostOps0, hostOps0_1, List.flatten_cons, List.flatten_nil, List.append_nil, List.cons_append, List.nil_append]
  after_results
  all_goals rfl

/-- The second is the missing-value term of theta: the same chain of operations the reference applies. -/
theorem missing_eq (c : Dev nD) :
    (V m c main_v1 : FVec Ideal S512 .f32) = Cert.ReferenceIdeal.RefValue.missing (argθ m c) := by
  dsimp only [V, V0]
  simp only [hostOps0, hostOps0_1, List.flatten_cons, List.flatten_nil, List.append_nil, List.cons_append, List.nil_append]
  after_results
  all_goals rfl

/-- The tile total the body adds at point `t` is the sum of the row sums of the tile's 2048 rows. -/
theorem tile_eq (c : Dev nD) (t : Fin cfg0.N) :
    Step.tileOf (iblk m c 0 t) (iblk m c 1 t) (iblk m c 2 t)
      = Cert.Spec.tileSum (argY m c) (V m c main_v0 : FVec Ideal S512 .f32) (V m c main_v1 : FVec Ideal S512 .f32) t.val := by
  unfold Step.tileOf Cert.Spec.tileSum
  rw [Finset.sum_range]
  refine sum_congr rfl fun (r : Fin 2048) _ => ?_
  unfold Cert.Spec.rowSum
  rw [dif_pos (row_lt t r)]
  refine sum_congr rfl fun (f : Fin 512) _ => ?_
  rw [blk0_apply m c t r f, blk1_apply m c t f, blk2_apply m c t f]

end Cert.KernelIdeal.Blocks

end
-- ==== Proof.Acc.lean ====
/-
  What the running total holds after each grid point.

  The 32 grid points are walked in order; point t belongs to group t / 16. The one-entry cell is reset at the first
  point of each group (t divisible by 16) and grows by tile t's total at every point, so after point t it holds the
  sum of the totals of the tiles of t's group up to and including t: the running total with periodic reset of the
  specification. At the last point of a group (t = 15 modulo 16) the same number is copied to the output block.
  The proof is an induction on the point; the three kinds of point (first, middle, last of a group) each contribute
  one step.
-/
import proofs.«107962_j25941602467911_2_alg».proof.Proof.Pieces
import proofs.«107962_j25941602467911_2_alg».proof.Proof.Blocks

set_option maxRecDepth 16384

noncomputable section

open Idealize.ShloMosaic Idealize.ShloMosaic.TcCoe Idealize.SL.Sem Idealize.ShloMosaic.ValueIdx Finset
open Idealize.ShloMosaic.Pipeline (Dat)

namespace Cert.KernelIdeal.Acc

open Cert.KernelIdeal Cert.KernelIdeal.Gen Cert.KernelIdeal.Blocks

variable (m : (ℓ : Loc nD τ sig) → Buf (Elt Ideal) ℓ)

/-- Tile `t`'s total and the running total after tile `t`, of the arrays the launch finds. -/
abbrev tile (c : Dev nD) (t : ℕ) : Ideal .f32 :=
  Cert.Spec.tileSum (argY m c) (V m c main_v0 : FVec Ideal S512 .f32) (V m c main_v1 : FVec Ideal S512 .f32) t
abbrev acc (c : Dev nD) (t : ℕ) : Ideal .f32 :=
  Cert.Spec.groupAcc (argY m c) (V m c main_v0 : FVec Ideal S512 .f32) (V m c main_v1 : FVec Ideal S512 .f32) t

/-- After the first point of a group the cell holds that point's tile total. -/
theorem first_eq (c : Dev nD) (t : Fin cfg0.N) (h0 : t.val % 16 = 0) (h1 : ¬t.val % 16 = 15) :
    (outsAt0 m c t.val t.isLt).2 = fun _ => tile m c t.val :=
  (congrArg Prod.snd (outsAt0_A m c t h0 h1)).trans <|
    (Pieces.cell_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)).trans <|
    (Step.step_eq (iblk m c 0 t) (iblk m c 1 t) (iblk m c 2 t) (k0_pay1 (F := Ideal)) 0 Step.zero_eq).trans <| by
      rw [zero_add, tile_eq]

/-- After a middle point the cell holds what it held plus that point's tile total. -/
theorem middle_eq (c : Dev nD) (t : Fin cfg0.N) (h0 : ¬t.val % 16 = 0) (h1 : ¬t.val % 16 = 15) (s : Ideal .f32)
    (hprev : (outsAt0 m c (t.val - 1) (Nat.lt_of_le_of_lt (Nat.sub_le _ _) t.isLt)).2 = fun _ => s) :
    (outsAt0 m c t.val t.isLt).2 = fun _ => s + tile m c t.val :=
  (congrArg Prod.snd (outsAt0_B m c t h0 h1)).trans <|
    (Pieces.cell_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2).trans <|
    (Step.step_eq (iblk m c 0 t) (iblk m c 1 t) (iblk m c 2 t) (outsAt0 m c (t.val - 1) (Nat.lt_of_le_of_lt (Nat.sub_le _ _) t.isLt)).2 s hprev).trans <| by
      rw [tile_eq]

/-- After the last point of a group the cell holds what it held plus that point's tile total … -/
theorem last_cell_eq (c : Dev nD) (t : Fin cfg0.N) (h0 : ¬t.val % 16 = 0) (h1 : t.val % 16 = 15) (s : Ideal .f32)
    (hprev : (outsAt0 m c (t.val - 1) (Nat.lt_of_le_of_lt (Nat.sub_le _ _) t.isLt)).2 = fun _ => s) :
    (outsAt0 m c t.val t.isLt).2 = fun _ => s + tile m c t.val :=
  (congrArg Prod.snd (outsAt0_C m c t h0 h1)).trans <|
    (Pieces.cell_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans <|
    (Step.step_eq (iblk m c 0 t) (iblk m c 1 t) (iblk m c 2 t) (outsAt0 m c (t.val - 1) (Nat.lt_of_le_of_lt (Nat.sub_le _ _) t.isLt)).2 s hprev).trans <| by
      rw [tile_eq]

/-- … and so does the output block. -/
theorem last_block_eq (c : Dev nD) (t : Fin cfg0.N) (h0 : ¬t.val % 16 = 0) (h1 : t.val % 16 = 15) (s : Ideal .f32)
    (hprev : (outsAt0 m c (t.val - 1) (Nat.lt_of_le_of_lt (Nat.sub_le _ _) t.isLt)).2 = fun _ => s) :
    (outsAt0 m c t.val t.isLt).1 = fun _ => s + tile m c t.val :=
  (congrArg Prod.fst (outsAt0_C m c t h0 h1)).trans <|
    (Pieces.block_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans <|
    Step.recast_eq _ _ ((Step.step_eq (iblk m c 0 t) (iblk m c 1 t) (iblk m c 2 t) (outsAt0 m c (t.val - 1) (Nat.lt_of_le_of_lt (Nat.sub_le _ _) t.isLt)).2 s hprev).trans (by rw [tile_eq]))

/-- After point `n` the cell holds the running total with periodic reset, by induction on the point. -/
theorem cell_eq (c : Dev nD) : ∀ (n : ℕ) (h : n < cfg0.N), (outsAt0 m c n h).2 = fun _ => acc m c n
  | 0, h => first_eq m c ⟨0, h⟩ rfl (by show ¬(0 % 16 = 15); decide)
  | n + 1, h => by
    have ih := cell_eq c n (Nat.lt_of_succ_lt h)
    by_cases h0 : (n + 1) % 16 = 0
    · have h1 : ¬(n + 1) % 16 = 15 := by omega
      refine (first_eq m c ⟨n + 1, h⟩ h0 h1).trans ?_
      show (fun _ => tile m c (n + 1)) = fun _ => ResetSum.resetAcc 16 (tile m c) (n + 1)
      rw [ResetSum.resetAcc_of_dvd 16 _ _ h0]
    · by_cases h1 : (n + 1) % 16 = 15
      · refine (last_cell_eq m c ⟨n + 1, h⟩ h0 h1 _ ih).trans ?_
        show (fun _ => ResetSum.resetAcc 16 (tile m c) n + tile m c (n + 1)) = fun _ => ResetSum.resetAcc 16 (tile m c) (n + 1)
        rw [ResetSum.resetAcc_succ 16 _ _ h0]
      · refine (middle_eq m c ⟨n + 1, h⟩ h0 h1 _ ih).trans ?_
        show (fun _ => ResetSum.resetAcc 16 (tile m c) n + tile m c (n + 1)) = fun _ => ResetSum.resetAcc 16 (tile m c) (n + 1)
        rw [ResetSum.resetAcc_succ 16 _ _ h0]

/-- At the last point of a group the output block holds the running total after that point. -/
theorem block_eq (c : Dev nD) (t : Fin cfg0.N) (h15 : t.val % 16 = 15) :
    (outsAt0 m c t.val t.isLt).1 = fun _ => acc m c t.val := by
  have h0 : ¬t.val % 16 = 0 := by omega
  have hpos : t.val - 1 + 1 = t.val := by omega
  refine (last_block_eq m c t h0 h15 _ (cell_eq m c (t.val - 1) (Nat.lt_of_le_of_lt (Nat.sub_le _ _) t.isLt))).trans ?_
  show (fun _ => ResetSum.resetAcc 16 (tile m c) (t.val - 1) + tile m c t.val) = fun _ => ResetSum.resetAcc 16 (tile m c) t.val
  have hs := ResetSum.resetAcc_succ 16 (tile m c) (t.val - 1) (by rw [hpos]; exact h0)
  rw [hpos] at hs
  rw [hs]

end Cert.KernelIdeal.Acc

end
-- ==== Proof.OutArray.lean ====
/-
  The output array after the run.

  The output has two entries (one per group of sixteen points, each a 1 x 1 block of a 2 x 1 x 1 array). The block of
  group g is written back exactly once, after the group's last point 16 g + 15, and holds the running total there: the
  sum of the group's sixteen tile totals. The two blocks cover the array, so after the run the array's entry (g, 0, 0)
  is the running total after point 16 g + 15.
-/
import proofs.«107962_j25941602467911_2_alg».proof.Proof.Acc

set_option maxRecDepth 16384

noncomputable section

open Idealize.ShloMosaic Idealize.ShloMosaic.TcCoe Idealize.SL.Sem Idealize.ShloMosaic.ValueIdx Finset
open Idealize.ShloMosaic.Pipeline (Dat)

namespace Cert.KernelIdeal.Out

open Cert.KernelIdeal Cert.KernelIdeal.Gen Cert.KernelIdeal.Blocks

variable (m : (ℓ : Loc nD τ sig) → Buf (Elt Ideal) ℓ)

/-- The output array after the run: entry (g, 0, 0) is the running total after the last point of group `g`. -/
def outArr (c : Dev nD) : Buf (Elt Ideal) ((c.tc : Thread nD τ).loc main_v2) :=
  fun i => Acc.acc m c ((i 0).val * 16 + 15)

/-- Point `t`'s output block is block (t / 16, 0, 0), of one entry. -/
theorem index3 : ∀ t : Fin cfg0.N, win0_3.index t (0 : Fin 3) = t.val / 16 ∧ win0_3.index t (1 : Fin 3) = 0
    ∧ win0_3.index t (2 : Fin 3) = 0 :=
  (by decide +kernel : ∀ t : Fin grid0.N, win0_3.index t (0 : Fin 3) = t.val / 16 ∧ win0_3.index t (1 : Fin 3) = 0
    ∧ win0_3.index t (2 : Fin 3) = 0)
theorem xsize3 : ∀ t : Fin cfg0.N, ∀ a : Fin 3, win0_3.xsize (grid0.coords t) a = 1 :=
  (by decide +kernel : ∀ t : Fin grid0.N, ∀ a : Fin 3, win0_3.xsize (grid0.coords t) a = 1)

/-- What a write-back writes is the array's function read through the point's block. -/
theorem flushed_eq (c : Dev nD) (t : Fin cfg0.N) (hf : (cfg0.win 3).flush t = true) :
    (dats m 0 c).flushed 3 t = ((cfg0.win 3).blk t).view.read (Elt Ideal) (outArr m c) := by
  have h15 : t.val % 16 = 15 := (flush0_3 t).mp hf
  show (cfg0.win 3).cut (grid0.coords t) ((dats m 0 c).after 3 t) = _
  rw [after0_3, Acc.block_eq m c t h15]
  funext y
  rw [View.read_apply]
  show Acc.acc m c t.val = outArr m c (((cfg0.win 3).blk t).view.emb y)
  unfold outArr
  have e : ((((cfg0.win 3).blk t).view.emb y) 0).val = t.val / 16 := by
    have hy : (y 0).val < 1 := lt_of_lt_of_eq (y 0).isLt (xsize3 t 0)
    show win0_3.index t 0 * 1 + 1 * (y 0).val = t.val / 16
    rw [(index3 t).1]; omega
  rw [e]
  congr 1
  omega

/-- The last point of entry `i`'s group. -/
def lastOf (i : S2x1x1.Idx) : Fin cfg0.N :=
  ⟨(i 0).val * 16 + 15, by
    have h : (i 0).val < 2 := (i 0).isLt
    rw [show cfg0.N = 32 from N_0]; omega⟩

/-- The two written-back blocks cover the array. -/
theorem cover (i : S2x1x1.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  have ht : (lastOf i).val = (i 0).val * 16 + 15 := rfl
  refine ⟨lastOf i, (flush0_3 _).mpr (by rw [ht]; omega), ?_⟩
  show i ∈ ((View.whole main_v2).slice (win0_3.rect (lastOf i))).set
  rw [View.set_slice_whole, Rect.mem_set_unit]
  intro a
  match a with
  | ⟨0, _⟩ =>
    show win0_3.index (lastOf i) 0 * 1 ≤ (i 0 : Nat) ∧ (i 0 : Nat) < win0_3.index (lastOf i) 0 * 1 + win0_3.xsize (grid0.coords (lastOf i)) 0
    rw [(index3 _).1, xsize3, ht]; omega
  | ⟨1, _⟩ =>
    show win0_3.index (lastOf i) 1 * 1 ≤ (i 1 : Nat) ∧ (i 1 : Nat) < win0_3.index (lastOf i) 1 * 1 + win0_3.xsize (grid0.coords (lastOf i)) 1
    rw [(index3 _).2.1, xsize3]; omega
  | ⟨2, _⟩ =>
    show win0_3.index (lastOf i) 2 * 1 ≤ (i 2 : Nat) ∧ (i 2 : Nat) < win0_3.index (lastOf i) 2 * 1 + win0_3.xsize (grid0.coords (lastOf i)) 2
    rw [(index3 _).2.2, xsize3]; omega

/-- So the output array ends holding `outArr`. -/
theorem final_eq (c : Dev nD) : (dats m 0 c).arrAt 3 cfg0.N = outArr m c :=
  (dats m 0 c).arrAt_eq_of_cover 3 (outArr m c) (flushed_eq m c) (cover)

end Cert.KernelIdeal.Out

end
-- ==== Proof.KValue.lean ====
/-
  The kernel program's result.

  After the launch the host adds up the two entries of the output array (starting from zero), negates the sum and
  divides by 65536. The two entries are the two groups' totals, which together are the sum S of all 65536 row sums; and
  (-S) / 65536 = -(S / 65536). So the program ends with the common result, its three arguments unchanged.
-/
import proofs.«107962_j25941602467911_2_alg».proof.Proof.OutArray
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx Finset
open Idealize.ShloMosaic.Pipeline (Dat)

namespace Cert.KernelIdeal.KValue

open Cert.KernelIdeal Cert.KernelIdeal.Gen Cert.KernelIdeal.Blocks

variable (m : (ℓ : Loc nD τ sig) → Buf (Elt Ideal) ℓ) (ρ : Dev nD → PrngReg)

/-- Adding up a 2 x 1 x 1 array from zero gives the sum of its two entries. -/
theorem sumAll_apply (y : FVec Ideal S2x1x1 .f32) (i : S_.Idx) :
    Host.reduceAdd y (constant S_ .f32 0x00000000#32) reducesTo_S2x1x1_S_d0_1_2 h_S_ i
      = ∑ g : Fin 2, y (ix3 g (0 : Fin 1) (0 : Fin 1)) := by
  simp only [Host.reduceAdd, Ideal.hostReduceAdd_def]
  rw [Ideal.hostReduceAdd_total reducesTo_S2x1x1_S_d0_1_2 (fun b => b.elim0)]
  show Ideal.ofBits .f32 0x00000000#32 + _ = _
  rw [Ideal.ofBits_zero_f32, zero_add, Cert.IdxSum.sum_idx311]

/-- What the host does after the launch, as one function of the output array: add up its entries from zero, negate,
    divide by 65536. -/
def tail (y : FVec Ideal S2x1x1 .f32) : FVec Ideal S_ .f32 :=
  Host.divf (Host.negf (Host.reduceAdd y (constant S_ .f32 0x00000000#32) reducesTo_S2x1x1_S_d0_1_2 h_S_))
    (constant S_ .f32 0x47800000#32)

/-- The program's result buffer after the run: the host's operations after the launch, applied to the output array the
    launch left. -/
theorem tail_eq (c : Dev nD) :
    Pipeline.afterTail₀ cfgs (dats m) 0 (V0 m) [hostOps1] c main_v5 = tail (Out.outArr m c) := by
  unfold Pipeline.afterTail₀
  show StableHlo.after hostOps1 _ (Proc.devRef .tc main_v5) = _
  after_results
  refine congrArg tail ?_
  exact (Pipeline.withArrays_arr spec0 launch0.win.arr_inj c _ _ 3).trans (Out.final_eq m c)

/-- That value is the common result of the three arguments. -/
theorem value_eq (c : Dev nD) :
    tail (Out.outArr m c) = fun _ => Cert.ReferenceIdeal.RefValue.result (argY m c) (argθ m c) (argψ m c) := by
  funext i
  show Ideal.div (-(Host.reduceAdd (F := Ideal) (Out.outArr m c) (constant S_ .f32 0x00000000#32) reducesTo_S2x1x1_S_d0_1_2 h_S_ i))
    (Ideal.ofBits .f32 0x47800000#32) = _
  rw [sumAll_apply, Cert.Spec.neg_div_divisor]
  unfold Cert.ReferenceIdeal.RefValue.result
  refine congrArg (fun S => -Ideal.div S (Ideal.ofBits .f32 0x47800000#32)) ?_
  rw [← sumvec_eq m c, ← missing_eq m c, ← Cert.Spec.groups_eq_total, Finset.sum_range]
  rfl

/-- The kernel program's run: it terminates with the common result in its result buffer and its arguments unchanged. -/
theorem run : θ_run defs (onTc (τ := τ) (main (F := Ideal))) ⟨m, fun _ => 0, ρ⟩ fun r => ∀ c : Dev nD,
      r.2.mem ((c.tc : Thread nD τ).loc main_v5)
        = (fun _ => Cert.ReferenceIdeal.RefValue.result (argY m c) (argθ m c) (argψ m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans ((tail_eq m c).trans (value_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.lean ====
/-
  The certificate's five claims.

  Both programs take an integer array Y (65536 x 512) and two real vectors theta, psi (length 512), and both compute

      -( S / 65536 ),   S = sum over rows n of  sum over columns f of  entry(n, f),

  where entry(n, f) = (theta + psi) f * Y n f  where Y n f is not the marker -1, and the missing-value term of theta at
  f where it is. The reference does exactly this, row by row. The kernel cuts the rows into 32 tiles of 2048, adds each
  tile's total into a running total that is reset every sixteen tiles, writes the two group totals out, and the host adds
  those two, negates, and divides. On the extended reals the two agree: a finite sum may be regrouped freely (addition
  is associative and commutative, at the infinities too), and a sign moves across division by the nonzero real 65536.
  The precondition (finite float inputs) is not needed for the equality and is never opened.

  The three frame claims: each program terminates without fault and leaves its arguments as it found them; for the two
  kernel programs this is the generated frame, for the reference it is its run with the result forgotten. The
  idealization changed no operation, so the fourth claim is trivial.
-/
import proofs.«107962_j25941602467911_2_alg».proof.Defs
import proofs.«107962_j25941602467911_2_alg».proof.Proof.Gen.Kernel
import proofs.«107962_j25941602467911_2_alg».proof.Proof.Gen.Kernel.Frame
import proofs.«107962_j25941602467911_2_alg».proof.Proof.Gen.KernelIdeal
import proofs.«107962_j25941602467911_2_alg».proof.Proof.Gen.KernelIdeal.Frame
import proofs.«107962_j25941602467911_2_alg».proof.Proof.Gen.ReferenceIdeal
import proofs.«107962_j25941602467911_2_alg».proof.Proof.Gen.ReferenceIdeal.Read
import proofs.«107962_j25941602467911_2_alg».proof.Proof.Gen.Pre_finite_inputs
import proofs.«107962_j25941602467911_2_alg».proof.Proof.RefValue
import proofs.«107962_j25941602467911_2_alg».proof.Proof.KValue
import Idealize.ShloMosaic.Adequacy
import Idealize.ShloMosaic.Init

noncomputable section

namespace Cert.Proof

open Idealize.ShloMosaic Idealize.ShloMosaic.TcCoe Idealize.SL.Sem

/-- The kernel as printed terminates and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference terminates and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments, both idealized programs end with the common result. -/
theorem algebraic : Cert.algebraic_KernelIdeal_ReferenceIdeal := by
  intro m ρ m' ρ' _ hagree
  refine ⟨fun c => (fun _ => Cert.ReferenceIdeal.RefValue.result (Cert.KernelIdeal.Blocks.argY m c)
    (Cert.KernelIdeal.Blocks.argθ m c) (Cert.KernelIdeal.Blocks.argψ m c)), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.value_eq, (hagree c).1, (hagree c).2.1,
    (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
